-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x2048 : Shape := ⟨2, ![256, 2048]⟩
abbrev S16x1024x2048 : Shape := ⟨3, ![16, 1024, 2048]⟩
abbrev S16x2048x1024 : Shape := ⟨3, ![16, 2048, 1024]⟩
abbrev S_ : Shape := ⟨0, ![]⟩

class Facts : Prop where
  bcast_S_S256x2048 : S_.BroadcastsInDim S256x2048 (![] : Fin 0 → Fin S256x2048.rank)
  reducesTo_S256x2048_S_d0_1 : S256x2048.ReducesTo [0, 1] S_
  h_S_ : 0 < S_.numel
  bcast_S_S16x1024x2048 : S_.BroadcastsInDim S16x1024x2048 (![] : Fin 0 → Fin S16x1024x2048.rank)
  reducesTo_S16x1024x2048_S_d0_1_2 : S16x1024x2048.ReducesTo [0, 1, 2] S_
  bcast_S_S16x2048x1024 : S_.BroadcastsInDim S16x2048x1024 (![] : Fin 0 → Fin S16x2048x1024.rank)
  reducesTo_S16x2048x1024_S_d0_1_2 : S16x2048x1024.ReducesTo [0, 1, 2] S_

variable [Facts]

def fn_part1 {F : FTy → Type} [FloatOps F] (main_v13 : IVec S_ 1) (main_v16 : IVec S16x2048x1024 1) : IVec S_ 1 :=
  let main_c_5 : IVec S_ 1 := constantI S_ 1 1#1
  let main_v17 : IVec S_ 1 := (fun x v => Host.reduce IntOp.andi x v reducesTo_S16x2048x1024_S_d0_1_2 h_S_) main_v16 main_c_5
  let main_v18 : IVec S_ 1 := andi main_v13 main_v17
  main_v18

def fn {F : FTy → Type} [FloatOps F] (main_arg0 : FVec F S256x2048 .f32) (main_arg1 : FVec F S16x1024x2048 .f32) (main_arg2 : FVec F S16x1024x2048 .f32) (main_arg3 : FVec F S16x2048x1024 .f32) : IVec S_ 1 :=
  let main_v0 : FVec F S256x2048 .f32 := Host.absf main_arg0
  let main_cst : FVec F S_ .f32 := constant S_ .f32 0x7F800000#32
  let main_v1 : FVec F S256x2048 .f32 := broadcastInDim S256x2048 ![] bcast_S_S256x2048 main_cst
  let main_v2 : IVec S256x2048 1 := cmpf .olt main_v0 main_v1
  let main_c : IVec S_ 1 := constantI S_ 1 1#1
  let main_v3 : IVec S_ 1 := (fun x v => Host.reduce IntOp.andi x v reducesTo_S256x2048_S_d0_1 h_S_) main_v2 main_c
  let main_v4 : FVec F S16x1024x2048 .f32 := Host.absf main_arg1
  let main_cst_0 : FVec F S_ .f32 := constant S_ .f32 0x7F800000#32
  let main_v5 : FVec F S16x1024x2048 .f32 := broadcastInDim S16x1024x2048 ![] bcast_S_S16x1024x2048 main_cst_0
  let main_v6 : IVec S16x1024x2048 1 := cmpf .olt main_v4 main_v5
  let main_c_1 : IVec S_ 1 := constantI S_ 1 1#1
  let main_v7 : IVec S_ 1 := (fun x v => Host.reduce IntOp.andi x v reducesTo_S16x1024x2048_S_d0_1_2 h_S_) main_v6 main_c_1
  let main_v8 : IVec S_ 1 := andi main_v3 main_v7
  let main_v9 : FVec F S16x1024x2048 .f32 := Host.absf main_arg2
  let main_cst_2 : FVec F S_ .f32 := constant S_ .f32 0x7F800000#32
  let main_v10 : FVec F S16x1024x2048 .f32 := broadcastInDim S16x1024x2048 ![] bcast_S_S16x1024x2048 main_cst_2
  let main_v11 : IVec S16x1024x2048 1 := cmpf .olt main_v9 main_v10
  let main_c_3 : IVec S_ 1 := constantI S_ 1 1#1
  let main_v12 : IVec S_ 1 := (fun x v => Host.reduce IntOp.andi x v reducesTo_S16x1024x2048_S_d0_1_2 h_S_) main_v11 main_c_3
  let main_v13 : IVec S_ 1 := andi main_v8 main_v12
  let main_v14 : FVec F S16x2048x1024 .f32 := Host.absf main_arg3
  let main_cst_4 : FVec F S_ .f32 := constant S_ .f32 0x7F800000#32
  let main_v15 : FVec F S16x2048x1024 .f32 := broadcastInDim S16x2048x1024 ![] bcast_S_S16x2048x1024 main_cst_4
  let main_v16 : IVec S16x2048x1024 1 := cmpf .olt main_v14 main_v15
  fn_part1 (F := F) main_v13 main_v16
-- ==== Kernel.lean ====
abbrev S256x2048 : Shape := ⟨2, ![256, 2048]⟩
abbrev S16x1024x2048 : Shape := ⟨3, ![16, 1024, 2048]⟩
abbrev S16x2048x1024 : Shape := ⟨3, ![16, 2048, 1024]⟩
abbrev S16x256x2048 : Shape := ⟨3, ![16, 256, 2048]⟩
abbrev S1x512x2048 : Shape := ⟨3, ![1, 512, 2048]⟩
abbrev S1x2048x512 : Shape := ⟨3, ![1, 2048, 512]⟩
abbrev S1x256x2048 : Shape := ⟨3, ![1, 256, 2048]⟩
abbrev S512x2048 : Shape := ⟨2, ![512, 2048]⟩
abbrev S2048x512 : Shape := ⟨2, ![2048, 512]⟩
abbrev S256x512 : Shape := ⟨2, ![256, 512]⟩
abbrev S4096x2048 : Shape := ⟨2, ![4096, 2048]⟩

abbrev nBuf : Space → Nat
  | .hbm => 7
  | .vmem => 9
  | .smem => 0
  | _ => 0

abbrev bufTy : (tb : Table) → Fin (tcTables nBuf tb) → BufTy
  | .hbm, ⟨0, _⟩ => ⟨S256x2048, .f32⟩
  | .hbm, ⟨1, _⟩ => ⟨S16x1024x2048, .f32⟩
  | .hbm, ⟨2, _⟩ => ⟨S16x1024x2048, .f32⟩
  | .hbm, ⟨3, _⟩ => ⟨S16x2048x1024, .f32⟩
  | .hbm, ⟨4, _⟩ => ⟨S256x2048, .bf16⟩
  | .hbm, ⟨5, _⟩ => ⟨S16x256x2048, .f32⟩
  | .hbm, ⟨6, _⟩ => ⟨S4096x2048, .f32⟩
  | .local _ .vmem, ⟨0, _⟩ => ⟨S256x2048, .bf16⟩
  | .local _ .vmem, ⟨1, _⟩ => ⟨S1x512x2048, .f32⟩
  | .local _ .vmem, ⟨2, _⟩ => ⟨S1x512x2048, .f32⟩
  | .local _ .vmem, ⟨3, _⟩ => ⟨S1x512x2048, .f32⟩
  | .local _ .vmem, ⟨4, _⟩ => ⟨S1x512x2048, .f32⟩
  | .local _ .vmem, ⟨5, _⟩ => ⟨S1x2048x512, .f32⟩
  | .local _ .vmem, ⟨6, _⟩ => ⟨S1x2048x512, .f32⟩
  | .local _ .vmem, ⟨7, _⟩ => ⟨S1x256x2048, .f32⟩
  | .local _ .vmem, ⟨8, _⟩ => ⟨S1x256x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 2], ![false, false]⟩

def k0_cond1 (i : grid0.Coords) : BitVec 1 :=
  let arg1 : BitVec 32 := BitVec.ofNat 32 (i 1).val
  let c0_i32 : BitVec 32 := 0#32
  let v21 : BitVec 1 := Scalar.cmpi .eq arg1 c0_i32
  let v22 : BitVec 32 := Scalar.extui v21
  let c0_i32_12 : BitVec 32 := 0#32
  let v23 : BitVec 1 := Scalar.cmpi .ne v22 c0_i32_12
  v23

def k0_cond2 (i : grid0.Coords) : BitVec 1 :=
  let arg1 : BitVec 32 := BitVec.ofNat 32 (i 1).val
  let c0_i32_13 : BitVec 32 := 0#32
  let v24 : BitVec 1 := Scalar.cmpi .ne arg1 c0_i32_13
  let v25 : BitVec 32 := Scalar.extui v24
  let c0_i32_14 : BitVec 32 := 0#32
  let v26 : BitVec 1 := Scalar.cmpi .ne v25 c0_i32_14
  v26

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bitsLt_bf16_f32 : FTy.bits .bf16 < FTy.bits .f32
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  transposes_S512x2048_p1_0_S2048x512 : S512x2048.Transposes [1, 0] S2048x512
  transposes_S2048x512_p1_0_S512x2048 : S2048x512.Transposes [1, 0] S512x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  shapeCasts_S16x256x2048_S4096x2048 : S16x256x2048.ShapeCasts S4096x2048
  dot_S256x2048_S2048x512_S256x512_1_0_0_1_n_n_wf : DotDims.WF S256x2048 S2048x512 S256x512 [1] [0] [0] [1] [] []
  dot_S256x512_S512x2048_S256x2048_1_0_0_1_n_n_wf : DotDims.WF S256x512 S512x2048 S256x2048 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S256x2048.size a
  hwx0_0 : ∀ i : grid0.Coords, EltTy.bits .bf16 = 32 ∨ (Rect.block (s := S256x2048) S256x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x2048.size a ≤ S16x1024x2048.size a
  hwx0_1 : ∀ i : grid0.Coords, EltTy.bits .f32 = 32 ∨ (Rect.block (s := S16x1024x2048) S1x512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x2048.size a ≤ S16x1024x2048.size a
  hwx0_2 : ∀ i : grid0.Coords, EltTy.bits .f32 = 32 ∨ (Rect.block (s := S16x1024x2048) S1x512x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x512.size a ≤ S16x2048x1024.size a
  hwx0_3 : ∀ i : grid0.Coords, EltTy.bits .f32 = 32 ∨ (Rect.block (s := S16x2048x1024) S1x2048x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x2048.size a ≤ S16x256x2048.size a
  hwx0_4 : ∀ i : grid0.Coords, EltTy.bits .f32 = 32 ∨ (Rect.block (s := S16x256x2048) S1x256x2048.size (cc0_transform_4 i) (hinb0_4 i)).WholeWords (EltTy.packing .f32)

variable [Facts₀]

def dot_S256x2048_S2048x512_S256x512_1_0_0_1_n_n : DotDims S256x2048 S2048x512 S256x512 where
  lhsContracting := [1]
  rhsContracting := [0]
  lhsNonContracting := [0]
  rhsNonContracting := [1]
  lhsBatch := []
  rhsBatch := []
  wf := dot_S256x2048_S2048x512_S256x512_1_0_0_1_n_n_wf
def dot_S256x512_S512x2048_S256x2048_1_0_0_1_n_n : DotDims S256x512 S512x2048 S256x2048 where
  lhsContracting := [1]
  rhsContracting := [0]
  lhsNonContracting := [0]
  rhsNonContracting := [1]
  lhsBatch := []
  rhsBatch := []
  wf := dot_S256x512_S512x2048_S256x2048_1_0_0_1_n_n_wf

abbrev win0_0 : Pipeline.Window sig grid0 :=
  Pipeline.Window.ofSpec (Memref.whole main_v0) S256x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x2048x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x256x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond1 i == 1#1) && !(k0_cond2 i == 1#1) | ⟨_ + 5, h⟩ => absurd h (Nat.not_lt.2 (Nat.le_add_left _ _))

class Facts : Prop extends Facts₀ where

variable [Facts]
-- ==== ReferenceIdeal.lean ====
abbrev S256x2048 : Shape := ⟨2, ![256, 2048]⟩
abbrev S16x1024x2048 : Shape := ⟨3, ![16, 1024, 2048]⟩
abbrev S16x2048x1024 : Shape := ⟨3, ![16, 2048, 1024]⟩
abbrev S16x1024x256 : Shape := ⟨3, ![16, 1024, 256]⟩
abbrev S16x256x1024 : Shape := ⟨3, ![16, 256, 1024]⟩
abbrev S_ : Shape := ⟨0, ![]⟩
abbrev S16x256x2048 : Shape := ⟨3, ![16, 256, 2048]⟩
abbrev S4096x2048 : Shape := ⟨2, ![4096, 2048]⟩

abbrev nBuf : Space → Nat
  | .hbm => 20
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S16x1024x2048, .f32⟩
  | .hbm, ⟨2, _⟩ => ⟨S16x1024x2048, .f32⟩
  | .hbm, ⟨3, _⟩ => ⟨S16x2048x1024, .f32⟩
  | .hbm, ⟨4, _⟩ => ⟨S16x1024x256, .f32⟩
  | .hbm, ⟨5, _⟩ => ⟨S16x256x1024, .f32⟩
  | .hbm, ⟨6, _⟩ => ⟨S16x1024x256, .f32⟩
  | .hbm, ⟨7, _⟩ => ⟨S16x256x1024, .f32⟩
  | .hbm, ⟨8, _⟩ => ⟨S16x256x1024, .f32⟩
  | .hbm, ⟨9, _⟩ => ⟨S16x256x1024, .f32⟩
  | .hbm, ⟨10, _⟩ => ⟨S_, .f32⟩
  | .hbm, ⟨11, _⟩ => ⟨S16x256x1024, .f32⟩
  | .hbm, ⟨12, _⟩ => ⟨S16x256x1024, .f32⟩
  | .hbm, ⟨13, _⟩ => ⟨S_, .f32⟩
  | .hbm, ⟨14, _⟩ => ⟨S16x256x1024, .f32⟩
  | .hbm, ⟨15, _⟩ => ⟨S16x256x1024, .f32⟩
  | .hbm, ⟨16, _⟩ => ⟨S16x256x1024, .f32⟩
  | .hbm, ⟨17, _⟩ => ⟨S16x256x1024, .f32⟩
  | .hbm, ⟨18, _⟩ => ⟨S16x256x2048, .f32⟩
  | .hbm, ⟨19, _⟩ => ⟨S4096x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩

abbrev nD : Nat := 1
abbrev τ : Topo := Topo.v7x

variable {F : FTy → Type} [FloatOps F]

class Facts₀ : Prop where
  transposes_S16x1024x256_S16x256x1024_0_2_1 : S16x1024x256.Transposes [0, 2, 1] S16x256x1024
  bcast_S_S16x256x1024 : S_.BroadcastsInDim S16x256x1024 (![] : Fin 0 → Fin S16x256x1024.rank)
  shapeCasts_S16x256x2048_S4096x2048 : S16x256x2048.ShapeCasts S4096x2048
  dot_S16x1024x2048_S256x2048_S16x1024x256_2_1_01_0_n_n_wf : DotDims.WF S16x1024x2048 S256x2048 S16x1024x256 [2] [1] [0, 1] [0] [] []
  dot_S16x256x1024_S16x2048x1024_S16x256x2048_2_2_1_1_0_0_wf : DotDims.WF S16x256x1024 S16x2048x1024 S16x256x2048 [2] [2] [1] [1] [0] [0]

variable [Facts₀]

def dot_S16x1024x2048_S256x2048_S16x1024x256_2_1_01_0_n_n : DotDims S16x1024x2048 S256x2048 S16x1024x256 where
  lhsContracting := [2]
  rhsContracting := [1]
  lhsNonContracting := [0, 1]
  rhsNonContracting := [0]
  lhsBatch := []
  rhsBatch := []
  wf := dot_S16x1024x2048_S256x2048_S16x1024x256_2_1_01_0_n_n_wf
def dot_S16x256x1024_S16x2048x1024_S16x256x2048_2_2_1_1_0_0 : DotDims S16x256x1024 S16x2048x1024 S16x256x2048 where
  lhsContracting := [2]
  rhsContracting := [2]
  lhsNonContracting := [1]
  rhsNonContracting := [1]
  lhsBatch := [0]
  rhsBatch := [0]
  wf := dot_S16x256x1024_S16x2048x1024_S16x256x2048_2_2_1_1_0_0_wf

class Facts : Prop extends Facts₀ where

variable [Facts]
-- ==== Proof.KernelBody.lean ====
/-
  The kernel body of `Kernel` at every grid point, and the launch around it.

  The grid is 16 × 2: point `t` is expert `t / 2`, hidden tile `t % 2`. The output window's block index depends on the
  expert only, so its staging buffer is carried from the first tile's point to the second's and written back after the
  second. At a first-tile point the body stores the tile's contribution `k0_pay2` over whatever the buffer held; at a
  second-tile point it reads what the first left and stores `k0_pay3`: that plus its own contribution. The two guards of
  the body are complementary, so the output window is live at every point.
-/
import proofs.«170800_j12223476924456_2_alg».proof.Proof.Gen.Kernel.Frame
import proofs.«170800_j12223476924456_2_alg».proof.Proof.Gen.Kernel.Skeleton
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two guards over the grid -/

/-- The first guard (hidden tile 0) holds exactly at the even points. -/
theorem first_iff : ∀ t : Fin cfg0.N, k0_cond1 (grid0.coords t) = 1#1 ↔ t.val % 2 = 0 :=
  (by decide +kernel : ∀ t : Fin grid0.N, k0_cond1 (grid0.coords t) = 1#1 ↔ t.val % 2 = 0)

/-- The second guard (a later hidden tile) holds exactly at the odd points. -/
theorem later_iff : ∀ t : Fin cfg0.N, k0_cond2 (grid0.coords t) = 1#1 ↔ t.val % 2 = 1 :=
  (by decide +kernel : ∀ t : Fin grid0.N, k0_cond2 (grid0.coords t) = 1#1 ↔ t.val % 2 = 1)

/-- No window is idle at any point: the inputs never, the output because one of its two guards always holds. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel

/-- The zero offsets of a whole-buffer access, rank 2 and rank 3. -/
theorem hz2 : (![0, 0] : Fin 2 → Nat) = fun _ => 0 := funext fun a => by fin_cases a <;> rfl
theorem hz3 : (![0, 0, 0] : Fin 3 → Nat) = fun _ => 0 := funext fun a => by fin_cases a <;> rfl

/-! ## The body's two runs -/

set_option maxHeartbeats 1000000 in
/-- At a first-tile point: on whole staging buffers, the inputs at `x0 … x3` and the output at anything, the body
    runs, leaves the inputs as they were and the output buffer at the tile's contribution. -/
theorem run_first (c : Dev nD) (i : grid0.Coords) (arg2 : Memref sig .tc .vmem S256x2048 .bf16) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S1x2048x512 .f32) (harg5 : arg5.IsWhole) (arg6 : Memref sig .tc .vmem S1x256x2048 .f32) (harg6 : arg6.IsWhole)
    (hc0 : k0_cond1 i = 1#1) (hc1 : ¬k0_cond2 i = 1#1)
    (x0 : Vec F S256x2048 .bf16) (x1 : Vec F S1x512x2048 .f32) (x2 : Vec F S1x512x2048 .f32) (x3 : Vec F S1x2048x512 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay2 x0 x1 x2 x3)) -∗ K ⟨⟩))
          ⊢ wp frame (wpE (defs₀ (F := F)) Variants.none c none) E (cc0__moe_kernel i arg2 harg2 arg3 harg3 arg4 harg4 arg5 harg5 arg6 harg6) K := by
    intro E K
    simp only [cc0__moe_kernel_eq_skeleton]; unfold cc0__moe_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; isplitr; swap; · iexact H4
    ipureintro
    rw [View.read_writes_eq_canon _ _ _ (fun y => ⟨_, List.mem_singleton_self _, View.mem_set_unit_zero hz3 Facts₀.inb_S1x256x2048_S1x256x2048_0_0_0 y⟩),
      View.canon_unit_zero hz3]
    simp only [View.readAt_eq_ld, harg2.read_unread, harg3.read_unread, harg4.read_unread, harg5.read_unread,
      View.ld_unit_zero (S := S256x2048) hz2, View.ld_unit_zero (S := S1x512x2048) hz3,
      View.ld_unit_zero (S := S1x2048x512) hz3]

set_option maxHeartbeats 1000000 in
/-- At a second-tile point: the output buffer holding `xo`, the body runs, leaves the inputs as they were and the
    output buffer at `xo` plus the tile's contribution. -/
theorem run_later (c : Dev nD) (i : grid0.Coords) (arg2 : Memref sig .tc .vmem S256x2048 .bf16) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S1x2048x512 .f32) (harg5 : arg5.IsWhole) (arg6 : Memref sig .tc .vmem S1x256x2048 .f32) (harg6 : arg6.IsWhole)
    (hc0 : ¬k0_cond1 i = 1#1) (hc1 : k0_cond2 i = 1#1)
    (x0 : Vec F S256x2048 .bf16) (x1 : Vec F S1x512x2048 .f32) (x2 : Vec F S1x512x2048 .f32) (x3 : Vec F S1x2048x512 .f32) (xo : Vec F S1x256x2048 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay3 x0 x1 x2 x3 xo)) -∗ K ⟨⟩))
          ⊢ wp frame (wpE (defs₀ (F := F)) Variants.none c none) E (cc0__moe_kernel i arg2 harg2 arg3 harg3 arg4 harg4 arg5 harg5 arg6 harg6) K := by
    intro E K
    simp only [cc0__moe_kernel_eq_skeleton]; unfold cc0__moe_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; isplitr; swap; · iexact H4
    ipureintro
    rw [View.read_writes_eq_canon _ _ _ (fun y => ⟨_, List.mem_singleton_self _, View.mem_set_unit_zero hz3 Facts₀.inb_S1x256x2048_S1x256x2048_0_0_0 y⟩),
      View.canon_unit_zero hz3]
    simp only [View.readAt_eq_ld, harg2.read_unread, harg3.read_unread, harg4.read_unread, harg5.read_unread,
      harg6.read_unread, View.ld_unit_zero (S := S256x2048) hz2, View.ld_unit_zero (S := S1x512x2048) hz3,
      View.ld_unit_zero (S := S1x2048x512) hz3, View.ld_unit_zero (S := S1x256x2048) hz3]

/-! ## What the output's staging buffer holds after each point -/

/-- After point `n`: the tile's contribution at a first-tile point; at a second-tile point that point's contribution
    added to what the point before left. -/
def carried (c : Dev nD) : (n : ℕ) → n < cfg0.N → Vec F S1x256x2048 .f32
  | 0, hn => k0_pay2 (iblk m c 0 ⟨0, hn⟩) (iblk m c 1 ⟨0, hn⟩) (iblk m c 2 ⟨0, hn⟩) (iblk m c 3 ⟨0, hn⟩)
  | n + 1, hn =>
    if (n + 1) % 2 = 0 then
      k0_pay2 (iblk m c 0 ⟨n + 1, hn⟩) (iblk m c 1 ⟨n + 1, hn⟩) (iblk m c 2 ⟨n + 1, hn⟩) (iblk m c 3 ⟨n + 1, hn⟩)
    else
      k0_pay3 (iblk m c 0 ⟨n + 1, hn⟩) (iblk m c 1 ⟨n + 1, hn⟩) (iblk m c 2 ⟨n + 1, hn⟩) (iblk m c 3 ⟨n + 1, hn⟩)
        (carried c n (Nat.lt_of_succ_lt hn))

/-- At a first-tile point. -/
theorem carried_first (c : Dev nD) (t : Fin cfg0.N) (h0 : t.val % 2 = 0) :
    carried m c t.val t.isLt = k0_pay2 (iblk m c 0 t) (iblk m c 1 t) (iblk m c 2 t) (iblk m c 3 t) := by
  obtain ⟨n, hn⟩ := t
  cases n with
  | zero => rfl
  | succ n => exact (if_pos h0).trans rfl

/-- At a second-tile point. -/
theorem carried_later (c : Dev nD) (t : Fin cfg0.N) (h0 : ¬t.val % 2 = 0) :
    carried m c t.val t.isLt = k0_pay3 (iblk m c 0 t) (iblk m c 1 t) (iblk m c 2 t) (iblk m c 3 t)
      (carried m c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## The proof data -/

/-- On core `c`: the arrays as the region finds them; after the body each input's buffer at its block and the output's
    at `carried`; the invariant what the body may use and need not describe; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => carried m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = carried m c t.val t.isLt := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- At a second-tile point the output's current staging buffer holds what the body left at the point before: the point
    is not the first, the buffer was not written back between, the window was live there and its block is uncut. -/
theorem before4_later (c : Dev nD) (t : Fin cfg0.N) (h0 : ¬t.val % 2 = 0) (d) :
    (dats m 0 c).before 4 t d = carried m c (t.val - 1) (Nat.lt_of_le_of_lt (Nat.sub_le _ _) t.isLt) := by
  have hN : t.val < 32 := lt_of_lt_of_eq t.isLt (show cfg0.N = 32 from N_0)
  have hfl : (cfg0.win 4).flush ⟨t.val - 1, Nat.lt_of_le_of_lt (Nat.sub_le _ _) t.isLt⟩ = false :=
    Bool.eq_false_iff.mpr fun h => by have := (flush0_4 _).mp h; dsimp only at this; omega
  rw [(dats m 0 c).before_of_pos 4 t (by omega) ((cfg0.win 4).fetch_out rfl t), hfl, if_neg Bool.false_ne_true]
  unfold Dat.left
  rw [live4]
  dsimp only
  unfold Dat.kept
  rw [Pipeline.fill_of_clip_none 4 _ (fun _ => rfl) d ((dats m 0 c).after 4 _), Window.fill_cut]
  dsimp only [dats]

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 800000 in
/-- The body at any point: the inputs' buffers hold their blocks; the point's parity says which guard holds; at a
    second-tile point the output's buffer holds what the first-tile point left; so the matching run applies. The
    invariant passes through unread and the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (st0_0 t) fullShare ((dats m 0 c).after 0 t) from by
    unfold Dat.leavesExact; rw [live0 t], after0]
  rw [show (dats m 0 c).leavesExact 1 t = owns (c : Thread nD τ) (st0_1 t) fullShare ((dats m 0 c).after 1 t) from by
    unfold Dat.leavesExact; rw [live1 t], after1]
  rw [show (dats m 0 c).leavesExact 2 t = owns (c : Thread nD τ) (st0_2 t) fullShare ((dats m 0 c).after 2 t) from by
    unfold Dat.leavesExact; rw [live2 t], after2]
  rw [show (dats m 0 c).leavesExact 3 t = owns (c : Thread nD τ) (st0_3 t) fullShare ((dats m 0 c).after 3 t) from by
    unfold Dat.leavesExact; rw [live3 t], after3]
  rw [show (dats m 0 c).leavesExact 4 t = owns (c : Thread nD τ) (st0_4 t) fullShare ((dats m 0 c).after 4 t) from by
    unfold Dat.leavesExact; rw [live4 t], after4]
  have hN : t.val < 32 := lt_of_lt_of_eq t.isLt (show cfg0.N = 32 from N_0)
  by_cases h0 : t.val % 2 = 0
  · rw [carried_first m c t h0]
    iintro ⟨HΦ, Ho, ⟨%d0, H0⟩, ⟨%d1, H1⟩, ⟨%d2, H2⟩, ⟨%d3, H3⟩, ⟨%d4, H4⟩⟩
    iapply ((run_first c (grid0.coords t) _ _ _ _ _ _ _ _ _ _ ((first_iff t).mpr h0) (fun h => by have := (later_iff t).mp h; omega) (iblk m c 0 t) (iblk m c 1 t) (iblk m c 2 t) (iblk m c 3 t)) Set.univ _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [carried_later m c t h0]
    simp only [before4_later m c t h0]
    iintro ⟨HΦ, Ho, ⟨%d0, H0⟩, ⟨%d1, H1⟩, ⟨%d2, H2⟩, ⟨%d3, H3⟩, ⟨%d4, H4⟩⟩
    iapply ((run_later c (grid0.coords t) _ _ _ _ _ _ _ _ _ _ (fun h => h0 ((first_iff t).mp h)) ((later_iff t).mpr (by omega)) (iblk m c 0 t) (iblk m c 1 t) (iblk m c 2 t) (iblk m c 3 t) _) Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has every
    array of the pipeline at what the write-backs of the proof data leave, and every other unscoped buffer at what the
    host line after the region computes from them. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and its argument arrays end unchanged, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Body

end
-- ==== Proof.KernelIdealBody.lean ====
/-
  The kernel body of `KernelIdeal` at every grid point, and the launch around it.

  The grid is 16 × 2: point `t` is expert `t / 2`, hidden tile `t % 2`. The output window's block index depends on the
  expert only, so its staging buffer is carried from the first tile's point to the second's and written back after the
  second. At a first-tile point the body stores the tile's contribution `k0_pay2` over whatever the buffer held; at a
  second-tile point it reads what the first left and stores `k0_pay3`: that plus its own contribution. The two guards of
  the body are complementary, so the output window is live at every point.
-/
import proofs.«170800_j12223476924456_2_alg».proof.Proof.Gen.KernelIdeal.Frame
import proofs.«170800_j12223476924456_2_alg».proof.Proof.Gen.KernelIdeal.Skeleton
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two guards over the grid -/

/-- The first guard (hidden tile 0) holds exactly at the even points. -/
theorem first_iff : ∀ t : Fin cfg0.N, k0_cond1 (grid0.coords t) = 1#1 ↔ t.val % 2 = 0 :=
  (by decide +kernel : ∀ t : Fin grid0.N, k0_cond1 (grid0.coords t) = 1#1 ↔ t.val % 2 = 0)

/-- The second guard (a later hidden tile) holds exactly at the odd points. -/
theorem later_iff : ∀ t : Fin cfg0.N, k0_cond2 (grid0.coords t) = 1#1 ↔ t.val % 2 = 1 :=
  (by decide +kernel : ∀ t : Fin grid0.N, k0_cond2 (grid0.coords t) = 1#1 ↔ t.val % 2 = 1)

/-- No window is idle at any point: the inputs never, the output because one of its two guards always holds. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel

/-- The zero offsets of a whole-buffer access, rank 2 and rank 3. -/
theorem hz2 : (![0, 0] : Fin 2 → Nat) = fun _ => 0 := funext fun a => by fin_cases a <;> rfl
theorem hz3 : (![0, 0, 0] : Fin 3 → Nat) = fun _ => 0 := funext fun a => by fin_cases a <;> rfl

/-! ## The body's two runs -/

set_option maxHeartbeats 1000000 in
/-- At a first-tile point: on whole staging buffers, the inputs at `x0 … x3` and the output at anything, the body
    runs, leaves the inputs as they were and the output buffer at the tile's contribution. -/
theorem run_first (c : Dev nD) (i : grid0.Coords) (arg2 : Memref sig .tc .vmem S256x2048 .bf16) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S1x2048x512 .f32) (harg5 : arg5.IsWhole) (arg6 : Memref sig .tc .vmem S1x256x2048 .f32) (harg6 : arg6.IsWhole)
    (hc0 : k0_cond1 i = 1#1) (hc1 : ¬k0_cond2 i = 1#1)
    (x0 : Vec F S256x2048 .bf16) (x1 : Vec F S1x512x2048 .f32) (x2 : Vec F S1x512x2048 .f32) (x3 : Vec F S1x2048x512 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay2 x0 x1 x2 x3)) -∗ K ⟨⟩))
          ⊢ wp frame (wpE (defs₀ (F := F)) Variants.none c none) E (cc0__moe_kernel i arg2 harg2 arg3 harg3 arg4 harg4 arg5 harg5 arg6 harg6) K := by
    intro E K
    simp only [cc0__moe_kernel_eq_skeleton]; unfold cc0__moe_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; isplitr; swap; · iexact H4
    ipureintro
    rw [View.read_writes_eq_canon _ _ _ (fun y => ⟨_, List.mem_singleton_self _, View.mem_set_unit_zero hz3 Facts₀.inb_S1x256x2048_S1x256x2048_0_0_0 y⟩),
      View.canon_unit_zero hz3]
    simp only [View.readAt_eq_ld, harg2.read_unread, harg3.read_unread, harg4.read_unread, harg5.read_unread,
      View.ld_unit_zero (S := S256x2048) hz2, View.ld_unit_zero (S := S1x512x2048) hz3,
      View.ld_unit_zero (S := S1x2048x512) hz3]

set_option maxHeartbeats 1000000 in
/-- At a second-tile point: the output buffer holding `xo`, the body runs, leaves the inputs as they were and the
    output buffer at `xo` plus the tile's contribution. -/
theorem run_later (c : Dev nD) (i : grid0.Coords) (arg2 : Memref sig .tc .vmem S256x2048 .bf16) (harg2 : arg2.IsWhole) (arg3 : Memref sig .tc .vmem S1x512x2048 .f32) (harg3 : arg3.IsWhole) (arg4 : Memref sig .tc .vmem S1x512x2048 .f32) (harg4 : arg4.IsWhole) (arg5 : Memref sig .tc .vmem S1x2048x512 .f32) (harg5 : arg5.IsWhole) (arg6 : Memref sig .tc .vmem S1x256x2048 .f32) (harg6 : arg6.IsWhole)
    (hc0 : ¬k0_cond1 i = 1#1) (hc1 : k0_cond2 i = 1#1)
    (x0 : Vec F S256x2048 .bf16) (x1 : Vec F S1x512x2048 .f32) (x2 : Vec F S1x512x2048 .f32) (x3 : Vec F S1x2048x512 .f32) (xo : Vec F S1x256x2048 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay3 x0 x1 x2 x3 xo)) -∗ K ⟨⟩))
          ⊢ wp frame (wpE (defs₀ (F := F)) Variants.none c none) E (cc0__moe_kernel i arg2 harg2 arg3 harg3 arg4 harg4 arg5 harg5 arg6 harg6) K := by
    intro E K
    simp only [cc0__moe_kernel_eq_skeleton]; unfold cc0__moe_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; isplitr; swap; · iexact H4
    ipureintro
    rw [View.read_writes_eq_canon _ _ _ (fun y => ⟨_, List.mem_singleton_self _, View.mem_set_unit_zero hz3 Facts₀.inb_S1x256x2048_S1x256x2048_0_0_0 y⟩),
      View.canon_unit_zero hz3]
    simp only [View.readAt_eq_ld, harg2.read_unread, harg3.read_unread, harg4.read_unread, harg5.read_unread,
      harg6.read_unread, View.ld_unit_zero (S := S256x2048) hz2, View.ld_unit_zero (S := S1x512x2048) hz3,
      View.ld_unit_zero (S := S1x2048x512) hz3, View.ld_unit_zero (S := S1x256x2048) hz3]

/-! ## What the output's staging buffer holds after each point -/

/-- After point `n`: the tile's contribution at a first-tile point; at a second-tile point that point's contribution
    added to what the point before left. -/
def carried (c : Dev nD) : (n : ℕ) → n < cfg0.N → Vec F S1x256x2048 .f32
  | 0, hn => k0_pay2 (iblk m c 0 ⟨0, hn⟩) (iblk m c 1 ⟨0, hn⟩) (iblk m c 2 ⟨0, hn⟩) (iblk m c 3 ⟨0, hn⟩)
  | n + 1, hn =>
    if (n + 1) % 2 = 0 then
      k0_pay2 (iblk m c 0 ⟨n + 1, hn⟩) (iblk m c 1 ⟨n + 1, hn⟩) (iblk m c 2 ⟨n + 1, hn⟩) (iblk m c 3 ⟨n + 1, hn⟩)
    else
      k0_pay3 (iblk m c 0 ⟨n + 1, hn⟩) (iblk m c 1 ⟨n + 1, hn⟩) (iblk m c 2 ⟨n + 1, hn⟩) (iblk m c 3 ⟨n + 1, hn⟩)
        (carried c n (Nat.lt_of_succ_lt hn))

/-- At a first-tile point. -/
theorem carried_first (c : Dev nD) (t : Fin cfg0.N) (h0 : t.val % 2 = 0) :
    carried m c t.val t.isLt = k0_pay2 (iblk m c 0 t) (iblk m c 1 t) (iblk m c 2 t) (iblk m c 3 t) := by
  obtain ⟨n, hn⟩ := t
  cases n with
  | zero => rfl
  | succ n => exact (if_pos h0).trans rfl

/-- At a second-tile point. -/
theorem carried_later (c : Dev nD) (t : Fin cfg0.N) (h0 : ¬t.val % 2 = 0) :
    carried m c t.val t.isLt = k0_pay3 (iblk m c 0 t) (iblk m c 1 t) (iblk m c 2 t) (iblk m c 3 t)
      (carried m c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## The proof data -/

/-- On core `c`: the arrays as the region finds them; after the body each input's buffer at its block and the output's
    at `carried`; the invariant what the body may use and need not describe; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => carried m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = carried m c t.val t.isLt := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- At a second-tile point the output's current staging buffer holds what the body left at the point before: the point
    is not the first, the buffer was not written back between, the window was live there and its block is uncut. -/
theorem before4_later (c : Dev nD) (t : Fin cfg0.N) (h0 : ¬t.val % 2 = 0) (d) :
    (dats m 0 c).before 4 t d = carried m c (t.val - 1) (Nat.lt_of_le_of_lt (Nat.sub_le _ _) t.isLt) := by
  have hN : t.val < 32 := lt_of_lt_of_eq t.isLt (show cfg0.N = 32 from N_0)
  have hfl : (cfg0.win 4).flush ⟨t.val - 1, Nat.lt_of_le_of_lt (Nat.sub_le _ _) t.isLt⟩ = false :=
    Bool.eq_false_iff.mpr fun h => by have := (flush0_4 _).mp h; dsimp only at this; omega
  rw [(dats m 0 c).before_of_pos 4 t (by omega) ((cfg0.win 4).fetch_out rfl t), hfl, if_neg Bool.false_ne_true]
  unfold Dat.left
  rw [live4]
  dsimp only
  unfold Dat.kept
  rw [Pipeline.fill_of_clip_none 4 _ (fun _ => rfl) d ((dats m 0 c).after 4 _), Window.fill_cut]
  dsimp only [dats]

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 800000 in
/-- The body at any point: the inputs' buffers hold their blocks; the point's parity says which guard holds; at a
    second-tile point the output's buffer holds what the first-tile point left; so the matching run applies. The
    invariant passes through unread and the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (st0_0 t) fullShare ((dats m 0 c).after 0 t) from by
    unfold Dat.leavesExact; rw [live0 t], after0]
  rw [show (dats m 0 c).leavesExact 1 t = owns (c : Thread nD τ) (st0_1 t) fullShare ((dats m 0 c).after 1 t) from by
    unfold Dat.leavesExact; rw [live1 t], after1]
  rw [show (dats m 0 c).leavesExact 2 t = owns (c : Thread nD τ) (st0_2 t) fullShare ((dats m 0 c).after 2 t) from by
    unfold Dat.leavesExact; rw [live2 t], after2]
  rw [show (dats m 0 c).leavesExact 3 t = owns (c : Thread nD τ) (st0_3 t) fullShare ((dats m 0 c).after 3 t) from by
    unfold Dat.leavesExact; rw [live3 t], after3]
  rw [show (dats m 0 c).leavesExact 4 t = owns (c : Thread nD τ) (st0_4 t) fullShare ((dats m 0 c).after 4 t) from by
    unfold Dat.leavesExact; rw [live4 t], after4]
  have hN : t.val < 32 := lt_of_lt_of_eq t.isLt (show cfg0.N = 32 from N_0)
  by_cases h0 : t.val % 2 = 0
  · rw [carried_first m c t h0]
    iintro ⟨HΦ, Ho, ⟨%d0, H0⟩, ⟨%d1, H1⟩, ⟨%d2, H2⟩, ⟨%d3, H3⟩, ⟨%d4, H4⟩⟩
    iapply ((run_first c (grid0.coords t) _ _ _ _ _ _ _ _ _ _ ((first_iff t).mpr h0) (fun h => by have := (later_iff t).mp h; omega) (iblk m c 0 t) (iblk m c 1 t) (iblk m c 2 t) (iblk m c 3 t)) Set.univ _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [carried_later m c t h0]
    simp only [before4_later m c t h0]
    iintro ⟨HΦ, Ho, ⟨%d0, H0⟩, ⟨%d1, H1⟩, ⟨%d2, H2⟩, ⟨%d3, H3⟩, ⟨%d4, H4⟩⟩
    iapply ((run_later c (grid0.coords t) _ _ _ _ _ _ _ _ _ _ (fun h => h0 ((first_iff t).mp h)) ((later_iff t).mpr (by omega)) (iblk m c 0 t) (iblk m c 1 t) (iblk m c 2 t) (iblk m c 3 t) _) Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has every
    array of the pipeline at what the write-backs of the proof data leave, and every other unscoped buffer at what the
    host line after the region computes from them. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and its argument arrays end unchanged, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Body

end
-- ==== Proof.LibMatmulPlain.lean ====
/-
  A plain matrix product read at an entry. For dimension numbers that contract the left operand's axis 1 with the right
  operand's axis 0 and have no batch axis, the product of an [A, K] and a [K, B] array accumulated into the zero splat
  has, at `(p, q)`, the value `∑ k, lhs (p, k) * rhs (k, q)` on the extended reals; for any sizes A, K, B and any two
  float formats of the operands (a change of format is the identity on the extended reals).
-/
import Idealize.ShloMosaic.PureOps.Ideal.Laws
import Idealize.ShloMosaic.Lib.ValueIdx

noncomputable section

open scoped BigOperators
open Idealize.ShloMosaic Idealize.ShloMosaic.ValueIdx

namespace MatmulPlain

/-- The matrix product into a zero accumulator at entry `(p, q)`. -/
theorem matmul_zero_apply {A K B : Nat} {φ₁ φ₂ : FTy}
    (d : DotDims ⟨2, ![A, K]⟩ ⟨2, ![K, B]⟩ ⟨2, ![A, B]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (lhs : FVec Ideal ⟨2, ![A, K]⟩ φ₁) (rhs : FVec Ideal ⟨2, ![K, B]⟩ φ₂) (p : Fin A) (q : Fin B) :
    matmul d prec lhs rhs (constant ⟨2, ![A, B]⟩ .f32 0x00000000#32) (ix2 p q)
      = ∑ k : Fin K, lhs (ix2 p k) * rhs (ix2 k q) := by
  obtain ⟨lc, rc, ln, rn, lb, rb, wf⟩ := d
  simp only at hlc hrc hln hrn hlb hrb
  subst hlc hrc hln hrn hlb hrb
  let D : DotDims ⟨2, ![A, K]⟩ ⟨2, ![K, B]⟩ ⟨2, ![A, B]⟩ := ⟨[1], [0], [0], [1], [], [], wf⟩
  refine (Ideal.matmul_constant_zero_apply D prec lhs rhs (ix2 p q)).trans ?_
  rw [← Equiv.sum_comp (contrEquiv1 D K rfl rfl).symm]
  refine Finset.sum_congr rfl fun k _ => ?_
  have hk := contrEquiv1_symm_val D K rfl rfl k
  have l0 : (D.lhsIdx (ix2 p q) ((contrEquiv1 D K rfl rfl).symm k) (0 : Fin 2)).val = p.val := by
    unfold DotDims.lhsIdx
    rw [dif_neg (show ¬(0 : Fin 2) ∈ ([] : List (Fin 2)) from List.not_mem_nil),
      dif_pos (show (0 : Fin 2) ∈ ([0] : List (Fin 2)) from List.mem_singleton.mpr rfl)]
    rfl
  have l1 : (D.lhsIdx (ix2 p q) ((contrEquiv1 D K rfl rfl).symm k) (1 : Fin 2)).val = k.val :=
    (D.lhsIdx_val_of_single rfl (ix2 p q) _).trans hk
  have r0 : (D.rhsIdx (ix2 p q) ((contrEquiv1 D K rfl rfl).symm k) (0 : Fin 2)).val = k.val :=
    (D.rhsIdx_val_of_single rfl (ix2 p q) _).trans hk
  have r1 : (D.rhsIdx (ix2 p q) ((contrEquiv1 D K rfl rfl).symm k) (1 : Fin 2)).val = q.val := by
    unfold DotDims.rhsIdx
    rw [dif_neg (show ¬(1 : Fin 2) ∈ ([] : List (Fin 2)) from List.not_mem_nil),
      dif_pos (show (1 : Fin 2) ∈ ([1] : List (Fin 2)) from List.mem_singleton.mpr rfl)]
    rfl
  have el : D.lhsIdx (ix2 p q) ((contrEquiv1 D K rfl rfl).symm k) = ix2 p k := funext fun a => Fin.ext (by
    match a with
    | ⟨0, _⟩ => exact l0
    | ⟨1, _⟩ => exact l1)
  have er : D.rhsIdx (ix2 p q) ((contrEquiv1 D K rfl rfl).symm k) = ix2 k q := funext fun a => Fin.ext (by
    match a with
    | ⟨0, _⟩ => exact r0
    | ⟨1, _⟩ => exact r1)
  rw [el, er]

end MatmulPlain

end
-- ==== Proof.MoeSpec.lean ====
/-
  A gated mixture-of-experts layer on the extended reals, entry by entry.

  For an expert `e`, a token `p` and a hidden unit `i` the hidden value is `act g u` with `g = ∑ₖ x[p,k]·wg[e,i,k]`,
  `u = ∑ₖ x[p,k]·wu[e,i,k]` and `act g u = g·σ(g)·u`, σ the logistic function. The output entry `(e, p, q)` is the sum over
  the 1024 hidden units of the hidden value times `wd[e,q,i]`. The hidden units split into two tiles of 512, and the sum
  over all of them is the first tile's sum plus the second's: additions only regrouped, so the identity holds for every
  extended real, infinite ones included.
-/
import Idealize.ShloMosaic.PureOps.Ideal
import Idealize.ShloMosaic.Lib.ValueIdx
import Mathlib.Algebra.BigOperators.Fin

noncomputable section

open scoped BigOperators
open Idealize.ShloMosaic Idealize.ShloMosaic.ValueIdx

namespace MoeSpec

/-- The gated activation `g · σ(g) · u`. -/
def act (g u : EReal) : EReal := g * Ideal.logistic g * u

/-- The logistic function is `1 / (1 + exp (-g))` with the extended reals' conventions, by definition. -/
theorem logistic_eq (g : EReal) : Ideal.logistic g = Ideal.div 1 (1 + Ideal.exp (-g)) := rfl

/-- The float word of `1.0` denotes the extended real `1`. -/
theorem one_f32 : Ideal.ofBits .f32 0x3F800000#32 = 1 := by
  simp [Ideal.ofBits, Ideal.ieee, -EReal.coe_mul]; norm_num

/-- Hidden unit `r` of tile `ti` is hidden unit `512·ti + r`. -/
def tileIx (ti : Fin 2) (r : Fin 512) : Fin 1024 :=
  ⟨ti.val * 512 + r.val, by have := ti.isLt; have := r.isLt; omega⟩

/-- One tile's contribution to output entry `(p, q)`, from the token block `x` and the tile's three weight blocks. -/
def tileOut (x : (⟨2, ![256, 2048]⟩ : Shape).Idx → EReal) (g u : (⟨3, ![1, 512, 2048]⟩ : Shape).Idx → EReal)
    (d : (⟨3, ![1, 2048, 512]⟩ : Shape).Idx → EReal) (p : Fin 256) (q : Fin 2048) : EReal :=
  ∑ r : Fin 512, act (∑ k : Fin 2048, x (ix2 p k) * g (ix3 0 r k)) (∑ k : Fin 2048, x (ix2 p k) * u (ix3 0 r k))
    * d (ix3 0 q r)

/-- The hidden value of expert `e` at token `p`, hidden unit `i`. -/
def hidden (x : (⟨2, ![256, 2048]⟩ : Shape).Idx → EReal) (wg wu : (⟨3, ![16, 1024, 2048]⟩ : Shape).Idx → EReal)
    (e : Fin 16) (p : Fin 256) (i : Fin 1024) : EReal :=
  act (∑ k : Fin 2048, x (ix2 p k) * wg (ix3 e i k)) (∑ k : Fin 2048, x (ix2 p k) * wu (ix3 e i k))

/-- Tile `ti`'s part of output entry `(e, p, q)`. -/
def part (x : (⟨2, ![256, 2048]⟩ : Shape).Idx → EReal) (wg wu : (⟨3, ![16, 1024, 2048]⟩ : Shape).Idx → EReal)
    (wd : (⟨3, ![16, 2048, 1024]⟩ : Shape).Idx → EReal) (e : Fin 16) (ti : Fin 2) (p : Fin 256) (q : Fin 2048) : EReal :=
  ∑ r : Fin 512, hidden x wg wu e p (tileIx ti r) * wd (ix3 e q (tileIx ti r))

/-- The layer's output, all experts stacked: entry `(e, p, q)`. -/
def whole (x : (⟨2, ![256, 2048]⟩ : Shape).Idx → EReal) (wg wu : (⟨3, ![16, 1024, 2048]⟩ : Shape).Idx → EReal)
    (wd : (⟨3, ![16, 2048, 1024]⟩ : Shape).Idx → EReal) : (⟨3, ![16, 256, 2048]⟩ : Shape).Idx → EReal :=
  fun j => ∑ i : Fin 1024, hidden x wg wu (j 0) (j 1) i * wd (ix3 (j 0) (j 2) i)

/-- A sum over 1024 terms is the sum over the first 512 plus the sum over the last 512. -/
theorem sum_two_tiles (f : Fin 1024 → EReal) :
    (∑ r : Fin 512, f (tileIx 0 r)) + (∑ r : Fin 512, f (tileIx 1 r)) = ∑ i : Fin 1024, f i := by
  have h := Fin.sum_univ_add (a := 512) (b := 512) (fun i : Fin (512 + 512) => f i)
  refine Eq.trans ?_ h.symm
  congr 1

/-- The two tiles' parts add up to the whole entry. -/
theorem part_add_part (x : (⟨2, ![256, 2048]⟩ : Shape).Idx → EReal) (wg wu : (⟨3, ![16, 1024, 2048]⟩ : Shape).Idx → EReal)
    (wd : (⟨3, ![16, 2048, 1024]⟩ : Shape).Idx → EReal) (e : Fin 16) (p : Fin 256) (q : Fin 2048) :
    part x wg wu wd e 0 p q + part x wg wu wd e 1 p q = whole x wg wu wd (ix3 e p q) :=
  sum_two_tiles fun i => hidden x wg wu e p i * wd (ix3 e q i)

end MoeSpec

end
-- ==== Proof.KernelPayload.lean ====
/-
  The kernel body's arithmetic read at an entry, on the extended reals.

  `k0_pay1` is one hidden tile's contribution: the token block times the transposed gate tile and times the transposed up
  tile (two products into zero accumulators), the gated activation entry by entry, and the product of that with the
  transposed down tile. The recasts to the narrower float format are the identity on the extended reals, a transposed
  operand is read at the swapped index, and a block with a leading unit axis is read at that axis's index 0.
  `k0_pay2` is that contribution stored as a [1,256,2048] block; `k0_pay3` adds it to the block the buffer held.
-/
import proofs.«170800_j12223476924456_2_alg».proof.Proof.Gen.KernelIdeal.Skeleton
import proofs.«170800_j12223476924456_2_alg».proof.Proof.LibMatmulPlain
import proofs.«170800_j12223476924456_2_alg».proof.Proof.MoeSpec
import Idealize.ShloMosaic.Lib.Pipeline.Value

noncomputable section

namespace Cert.KernelIdeal.Payload

open Cert.KernelIdeal Cert.KernelIdeal.Gen
open Idealize.ShloMosaic Idealize.ShloMosaic.ValueIdx
open scoped BigOperators

/-! ## Blocks with a leading unit axis -/

section Layout
variable {α : Type}

/-- A [1,512,2048] block viewed as [512,2048]. -/
theorem view_w (v : S1x512x2048.Idx → α) (h : S1x512x2048.ShapeCasts S512x2048) (r : Fin 512) (k : Fin 2048) :
    shapeCast S512x2048 v h (ix2 r k) = v (ix3 0 r k) :=
  shapeCast_apply v h (ix2 r k) (ix3 0 r k) (by
    rw [Shape.rowMajor_val_three, Shape.rowMajor_val_two]
    show (0 * 512 + r.val) * 2048 + k.val = r.val * 2048 + k.val
    omega)

/-- A [1,2048,512] block viewed as [2048,512]. -/
theorem view_d (v : S1x2048x512.Idx → α) (h : S1x2048x512.ShapeCasts S2048x512) (q : Fin 2048) (r : Fin 512) :
    shapeCast S2048x512 v h (ix2 q r) = v (ix3 0 q r) :=
  shapeCast_apply v h (ix2 q r) (ix3 0 q r) (by
    rw [Shape.rowMajor_val_three, Shape.rowMajor_val_two]
    show (0 * 2048 + q.val) * 512 + r.val = q.val * 512 + r.val
    omega)

/-- A [1,256,2048] block viewed as [256,2048]. -/
theorem view_o (v : S1x256x2048.Idx → α) (h : S1x256x2048.ShapeCasts S256x2048) (z : Fin 1) (p : Fin 256) (q : Fin 2048) :
    shapeCast S256x2048 v h (ix2 p q) = v (ix3 z p q) :=
  shapeCast_apply v h (ix2 p q) (ix3 z p q) (by
    rw [Shape.rowMajor_val_three, Shape.rowMajor_val_two]
    show (z.val * 256 + p.val) * 2048 + q.val = p.val * 2048 + q.val
    have := z.isLt
    omega)

/-- A [256,2048] array stored as a [1,256,2048] block. -/
theorem store_o (v : S256x2048.Idx → α) (h : S256x2048.ShapeCasts S1x256x2048) (z : Fin 1) (p : Fin 256) (q : Fin 2048) :
    shapeCast S1x256x2048 v h (ix3 z p q) = v (ix2 p q) :=
  shapeCast_apply v h (ix3 z p q) (ix2 p q) (by
    rw [Shape.rowMajor_val_three, Shape.rowMajor_val_two]
    show p.val * 2048 + q.val = (z.val * 256 + p.val) * 2048 + q.val
    have := z.isLt
    omega)

end Layout

/-! ## The products -/

/-- The token block times a transposed [512,2048] weight tile, at `(p, r)`. -/
theorem proj_apply (x0 : Vec Ideal S256x2048 .bf16) (w : Vec Ideal S1x512x2048 .f32)
    (h0 : S256x2048.ShapeCasts S256x2048) (h1 : S1x512x2048.ShapeCasts S512x2048) (hb : FTy.bits .bf16 < FTy.bits .f32)
    (ht : S512x2048.Transposes [1, 0] S2048x512) (p : Fin 256) (r : Fin 512) :
    matmul (F := Ideal) dot_S256x2048_S2048x512_S256x512_1_0_0_1_n_n none
        (shapeCast S256x2048 x0 h0 : FVec Ideal S256x2048 .bf16)
        (transpose S2048x512 [1, 0] (truncf (F := Ideal) .bf16 (shapeCast S512x2048 w h1 : FVec Ideal S512x2048 .f32) hb) ht)
        (constant (F := Ideal) S256x512 .f32 0x00000000#32) (ix2 p r)
      = ∑ k : Fin 2048, x0 (ix2 p k) * w (ix3 0 r k) := by
  refine (MatmulPlain.matmul_zero_apply _ rfl rfl rfl rfl rfl rfl none _ _ p r).trans ?_
  refine Finset.sum_congr rfl fun k _ => ?_
  rw [shapeCast_self]
  refine congrArg (x0 (ix2 p k) * ·) ?_
  refine (transpose_apply [1, 0] _ ht (ix2 k r) (ix2 r k) (fun b => match b with
    | ⟨0, _⟩ => rfl
    | ⟨1, _⟩ => rfl)).trans ?_
  exact view_w w h1 r k

/-- The transposed down tile at `(r, q)`. -/
theorem down_apply (d : Vec Ideal S1x2048x512 .f32) (h1 : S1x2048x512.ShapeCasts S2048x512)
    (hb : FTy.bits .bf16 < FTy.bits .f32) (ht : S2048x512.Transposes [1, 0] S512x2048) (r : Fin 512) (q : Fin 2048) :
    transpose S512x2048 [1, 0] (truncf (F := Ideal) .bf16 (shapeCast S2048x512 d h1) hb) ht (ix2 r q) = d (ix3 0 q r) := by
  refine (transpose_apply [1, 0] _ ht (ix2 r q) (ix2 q r) (fun b => match b with
    | ⟨0, _⟩ => rfl
    | ⟨1, _⟩ => rfl)).trans ?_
  exact view_d d h1 q r

/-- The logistic function of a vector, at an entry. -/
theorem logistic_apply {s : Shape} {φ : FTy} (a : FVec Ideal s φ) (i : s.Idx) : logistic a i = Ideal.logistic (a i) := rfl

/-! ## The payloads -/

/-- One tile's contribution at `(p, q)`. -/
theorem pay1_apply (x0 : Vec Ideal S256x2048 .bf16) (x1 x2 : Vec Ideal S1x512x2048 .f32) (x3 : Vec Ideal S1x2048x512 .f32)
    (p : Fin 256) (q : Fin 2048) :
    k0_pay1 (F := Ideal) x0 x1 x2 x3 (ix2 p q) = MoeSpec.tileOut x0 x1 x2 x3 p q := by
  unfold k0_pay1
  dsimp only
  refine (MatmulPlain.matmul_zero_apply _ rfl rfl rfl rfl rfl rfl none _ _ p q).trans ?_
  unfold MoeSpec.tileOut
  refine Finset.sum_congr rfl fun r _ => ?_
  unfold MoeSpec.act
  exact congrArg₂ (fun a b : EReal => a * b)
    (congrArg₂ (fun a b : EReal => a * b)
      (congrArg₂ (fun a b : EReal => a * b) (proj_apply x0 x1 _ _ _ _ p r)
        (congrArg Ideal.logistic (proj_apply x0 x1 _ _ _ _ p r)))
      (proj_apply x0 x2 _ _ _ _ p r))
    (down_apply x3 _ _ _ r q)

/-- The contribution stored as a [1,256,2048] block. -/
theorem pay2_apply (x0 : Vec Ideal S256x2048 .bf16) (x1 x2 : Vec Ideal S1x512x2048 .f32) (x3 : Vec Ideal S1x2048x512 .f32)
    (z : Fin 1) (p : Fin 256) (q : Fin 2048) :
    k0_pay2 (F := Ideal) x0 x1 x2 x3 (ix3 z p q) = MoeSpec.tileOut x0 x1 x2 x3 p q := by
  unfold k0_pay2
  exact (store_o _ _ z p q).trans (pay1_apply x0 x1 x2 x3 p q)

/-- The contribution added to the block `xo` the buffer held. -/
theorem pay3_apply (x0 : Vec Ideal S256x2048 .bf16) (x1 x2 : Vec Ideal S1x512x2048 .f32) (x3 : Vec Ideal S1x2048x512 .f32)
    (xo : Vec Ideal S1x256x2048 .f32) (z : Fin 1) (p : Fin 256) (q : Fin 2048) :
    k0_pay3 (F := Ideal) x0 x1 x2 x3 xo (ix3 z p q) = xo (ix3 z p q) + MoeSpec.tileOut x0 x1 x2 x3 p q := by
  unfold k0_pay3
  refine (store_o _ _ z p q).trans ?_
  rw [addf_apply, view_o xo _ z p q, pay1_apply]

/-- What the output's buffer holds after an expert's second tile, the first tile's blocks `x·'` and the second's `x·`:
    at `(z, p, q)` the two tiles' contributions added. -/
theorem two_tiles (x0 x0' : Vec Ideal S256x2048 .bf16) (x1 x2 x1' x2' : Vec Ideal S1x512x2048 .f32)
    (x3 x3' : Vec Ideal S1x2048x512 .f32) :
    (k0_pay3 (F := Ideal) x0 x1 x2 x3 (k0_pay2 (F := Ideal) x0' x1' x2' x3') : S1x256x2048.Idx → EReal)
      = fun y => MoeSpec.tileOut x0' x1' x2' x3' (y 1) (y 2) + MoeSpec.tileOut x0 x1 x2 x3 (y 1) (y 2) := by
  funext y
  obtain ⟨z, p, q, rfl⟩ : ∃ (z : Fin 1) (p : Fin 256) (q : Fin 2048), y = ix3 z p q := ⟨y 0, y 1, y 2, eq_ix3 y⟩
  rw [pay3_apply, pay2_apply]

end Cert.KernelIdeal.Payload

end
-- ==== Proof.KernelValue.lean ====
/-
  What the idealized kernel's result array holds after its run, on the extended reals.

  Point `t` of the 16 × 2 grid is expert `t / 2`, hidden tile `t % 2`. Its token block is the whole token array (recast
  to the narrower format: the identity here); its gate and up blocks are rows `512·(t % 2) …` of expert `t / 2`'s weights,
  its down block the same columns. So a tile's contribution computed from the blocks is that tile's part of the
  specification. The output block of expert `e` is written back once, after point `2e + 1`, holding the first tile's
  part plus the second's — the whole entry — and these sixteen blocks tile the [16,256,2048] result, which the host then
  views as [4096,2048].
-/
import proofs.«170800_j12223476924456_2_alg».proof.Proof.KernelIdealBody
import proofs.«170800_j12223476924456_2_alg».proof.Proof.KernelPayload
import Idealize.ShloMosaic.Lib.Pipeline.Value
import Idealize.ShloMosaic.Lib.StableHlo.Run

set_option maxRecDepth 16384

noncomputable section

namespace Cert.KernelIdeal.KValue

open Cert.KernelIdeal Cert.KernelIdeal.Gen Cert.KernelIdeal.Body
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The index maps over the grid -/

theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 3) = t.val / 2 ∧ win0_1.index t (1 : Fin 3) = t.val % 2
    ∧ win0_1.index t (2 : Fin 3) = 0 :=
  (by decide +kernel : ∀ t : Fin grid0.N, _)
theorem idx2 : ∀ t : Fin cfg0.N, win0_2.index t (0 : Fin 3) = t.val / 2 ∧ win0_2.index t (1 : Fin 3) = t.val % 2
    ∧ win0_2.index t (2 : Fin 3) = 0 :=
  (by decide +kernel : ∀ t : Fin grid0.N, _)
theorem idx3 : ∀ t : Fin cfg0.N, win0_3.index t (0 : Fin 3) = t.val / 2 ∧ win0_3.index t (1 : Fin 3) = 0
    ∧ win0_3.index t (2 : Fin 3) = t.val % 2 :=
  (by decide +kernel : ∀ t : Fin grid0.N, _)
theorem idx4 : ∀ t : Fin cfg0.N, win0_4.index t (0 : Fin 3) = t.val / 2 ∧ win0_4.index t (1 : Fin 3) = 0
    ∧ win0_4.index t (2 : Fin 3) = 0 :=
  (by decide +kernel : ∀ t : Fin grid0.N, _)

/-- The expert and the hidden tile of a grid point. -/
def expertOf (t : Fin cfg0.N) : Fin 16 :=
  ⟨t.val / 2, by have : t.val < 32 := lt_of_lt_of_eq t.isLt (show cfg0.N = 32 from N_0); omega⟩
def tileOf (t : Fin cfg0.N) : Fin 2 := ⟨t.val % 2, Nat.mod_lt _ (by decide)⟩

/-! ## The blocks, read off the argument arrays -/

/-- The token array as the region finds it: the host's recast of the argument, the identity on the extended reals. -/
theorem V_tokens (c : Dev nD) : (V m c main_v0 : S256x2048.Idx → EReal) = m ((c : Thread nD τ).loc main_arg0) := by
  show StableHlo.after hostOps0 (fun b => m (c, b)) (Proc.devRef .tc main_v0) = _
  after_results
  rfl

theorem blk0 (c : Dev nD) (t : Fin cfg0.N) (p : Fin 256) (k : Fin 2048) :
    (iblk m c 0 t : Vec Ideal S256x2048 .bf16) (ix2 p k) = m ((c : Thread nD τ).loc main_arg0) (ix2 p k) := by
  unfold iblk
  rw [View.read_apply]
  show (V m c main_v0 : S256x2048.Idx → EReal) _ = _
  rw [V_tokens]
  congr 1
  funext a
  apply Fin.ext
  match a with
  | ⟨0, _⟩ => show win0_0.index t (0 : Fin 2) * 256 + 1 * p.val = p.val; rw [(idx0 t).1]; omega
  | ⟨1, _⟩ => show win0_0.index t (1 : Fin 2) * 2048 + 1 * k.val = k.val; rw [(idx0 t).2]; omega

theorem blk1 (c : Dev nD) (t : Fin cfg0.N) (z : Fin 1) (r : Fin 512) (k : Fin 2048) :
    (iblk m c 1 t : Vec Ideal S1x512x2048 .f32) (ix3 z r k)
      = m ((c : Thread nD τ).loc main_arg1) (ix3 (expertOf t) (MoeSpec.tileIx (tileOf t) r) k) := by
  unfold iblk
  rw [View.read_apply]
  show V m c main_arg1 _ = _
  rw [V_main_arg1]
  congr 1
  funext a
  apply Fin.ext
  match a with
  | ⟨0, _⟩ => show win0_1.index t (0 : Fin 3) * 1 + 1 * z.val = t.val / 2; rw [(idx1 t).1]; have := z.isLt; omega
  | ⟨1, _⟩ => show win0_1.index t (1 : Fin 3) * 512 + 1 * r.val = t.val % 2 * 512 + r.val; rw [(idx1 t).2.1]; omega
  | ⟨2, _⟩ => show win0_1.index t (2 : Fin 3) * 2048 + 1 * k.val = k.val; rw [(idx1 t).2.2]; omega

theorem blk2 (c : Dev nD) (t : Fin cfg0.N) (z : Fin 1) (r : Fin 512) (k : Fin 2048) :
    (iblk m c 2 t : Vec Ideal S1x512x2048 .f32) (ix3 z r k)
      = m ((c : Thread nD τ).loc main_arg2) (ix3 (expertOf t) (MoeSpec.tileIx (tileOf t) r) k) := by
  unfold iblk
  rw [View.read_apply]
  show V m c main_arg2 _ = _
  rw [V_main_arg2]
  congr 1
  funext a
  apply Fin.ext
  match a with
  | ⟨0, _⟩ => show win0_2.index t (0 : Fin 3) * 1 + 1 * z.val = t.val / 2; rw [(idx2 t).1]; have := z.isLt; omega
  | ⟨1, _⟩ => show win0_2.index t (1 : Fin 3) * 512 + 1 * r.val = t.val % 2 * 512 + r.val; rw [(idx2 t).2.1]; omega
  | ⟨2, _⟩ => show win0_2.index t (2 : Fin 3) * 2048 + 1 * k.val = k.val; rw [(idx2 t).2.2]; omega

theorem blk3 (c : Dev nD) (t : Fin cfg0.N) (z : Fin 1) (q : Fin 2048) (r : Fin 512) :
    (iblk m c 3 t : Vec Ideal S1x2048x512 .f32) (ix3 z q r)
      = m ((c : Thread nD τ).loc main_arg3) (ix3 (expertOf t) q (MoeSpec.tileIx (tileOf t) r)) := by
  unfold iblk
  rw [View.read_apply]
  show V m c main_arg3 _ = _
  rw [V_main_arg3]
  congr 1
  funext a
  apply Fin.ext
  match a with
  | ⟨0, _⟩ => show win0_3.index t (0 : Fin 3) * 1 + 1 * z.val = t.val / 2; rw [(idx3 t).1]; have := z.isLt; omega
  | ⟨1, _⟩ => show win0_3.index t (1 : Fin 3) * 2048 + 1 * q.val = q.val; rw [(idx3 t).2.1]; omega
  | ⟨2, _⟩ => show win0_3.index t (2 : Fin 3) * 512 + 1 * r.val = t.val % 2 * 512 + r.val; rw [(idx3 t).2.2]; omega

/-- A tile's contribution computed from the point's blocks is that tile's part of the specification. -/
theorem tile_at (c : Dev nD) (t : Fin cfg0.N) (p : Fin 256) (q : Fin 2048) :
    MoeSpec.tileOut (iblk m c 0 t) (iblk m c 1 t) (iblk m c 2 t) (iblk m c 3 t) p q
      = MoeSpec.part (m ((c : Thread nD τ).loc main_arg0)) (m ((c : Thread nD τ).loc main_arg1))
          (m ((c : Thread nD τ).loc main_arg2)) (m ((c : Thread nD τ).loc main_arg3)) (expertOf t) (tileOf t) p q := by
  unfold MoeSpec.tileOut MoeSpec.part MoeSpec.hidden
  simp only [blk0 m c t, blk1 m c t, blk2 m c t, blk3 m c t]

/-! ## The write-backs -/

/-- The array the kernel's result window ends holding: the specification of the argument arrays. -/
abbrev G (c : Dev nD) : S16x256x2048.Idx → EReal :=
  MoeSpec.whole (m ((c : Thread nD τ).loc main_arg0)) (m ((c : Thread nD τ).loc main_arg1))
    (m ((c : Thread nD τ).loc main_arg2)) (m ((c : Thread nD τ).loc main_arg3))

/-- What a write-back point writes is its expert's block of the specification: the point is a second-tile point, the
    point before the same expert's first tile, and the two tiles' parts add up to the whole entry. -/
theorem flushed_eq (c : Dev nD) (t : Fin cfg0.N) (hf : (cfg0.win 4).flush t = true) :
    (dats m 0 c).flushed 4 t = ((cfg0.win 4).blk t).view.read (Elt Ideal) (G m c) := by
  have ht : t.val % 2 = 1 := (flush0_4 t).mp hf
  have hN : t.val < 32 := lt_of_lt_of_eq t.isLt (show cfg0.N = 32 from N_0)
  have hlt : t.val - 1 < cfg0.N := Nat.lt_of_le_of_lt (Nat.sub_le _ _) t.isLt
  show (cfg0.win 4).cut (grid0.coords t) ((dats m 0 c).after 4 t) = _
  rw [after4, carried_later m c t (by omega)]
  have hprev : carried m c (t.val - 1) hlt
      = k0_pay2 (iblk m c 0 ⟨t.val - 1, hlt⟩) (iblk m c 1 ⟨t.val - 1, hlt⟩) (iblk m c 2 ⟨t.val - 1, hlt⟩) (iblk m c 3 ⟨t.val - 1, hlt⟩) :=
    carried_first m c ⟨t.val - 1, hlt⟩ (by show (t.val - 1) % 2 = 0; omega)
  rw [hprev]
  refine (congrArg ((cfg0.win 4).cut (grid0.coords t))
    (Payload.two_tiles (iblk m c 0 t) (iblk m c 0 ⟨t.val - 1, hlt⟩) (iblk m c 1 t) (iblk m c 2 t) (iblk m c 1 ⟨t.val - 1, hlt⟩)
      (iblk m c 2 ⟨t.val - 1, hlt⟩) (iblk m c 3 t) (iblk m c 3 ⟨t.val - 1, hlt⟩))).trans ?_
  funext j
  rw [View.read_apply]
  show MoeSpec.tileOut (iblk m c 0 ⟨t.val - 1, hlt⟩) (iblk m c 1 ⟨t.val - 1, hlt⟩) (iblk m c 2 ⟨t.val - 1, hlt⟩) (iblk m c 3 ⟨t.val - 1, hlt⟩) (j 1) (j 2)
      + MoeSpec.tileOut (iblk m c 0 t) (iblk m c 1 t) (iblk m c 2 t) (iblk m c 3 t) (j 1) (j 2)
    = G m c (((cfg0.win 4).blk t).view.emb j)
  rw [tile_at m c ⟨t.val - 1, hlt⟩ (j 1) (j 2), tile_at m c t (j 1) (j 2)]
  have he : expertOf ⟨t.val - 1, hlt⟩ = expertOf t := Fin.ext (by show (t.val - 1) / 2 = t.val / 2; omega)
  have h0 : tileOf ⟨t.val - 1, hlt⟩ = 0 := Fin.ext (by show (t.val - 1) % 2 = 0; omega)
  have h1 : tileOf t = 1 := Fin.ext (by show t.val % 2 = 1; exact ht)
  rw [he, h0, h1]
  refine (MoeSpec.part_add_part _ _ _ _ (expertOf t) (j 1) (j 2)).trans ?_
  refine congrArg (G m c) (funext fun a => Fin.ext ?_)
  match a with
  | ⟨0, _⟩ => show t.val / 2 = win0_4.index t (0 : Fin 3) * 1 + 1 * (j 0).val; rw [(idx4 t).1]; have hj : (j 0).val < 1 := (j 0).isLt; omega
  | ⟨1, _⟩ => show (j 1).val = win0_4.index t (1 : Fin 3) * 256 + 1 * (j 1).val; rw [(idx4 t).2.1]; omega
  | ⟨2, _⟩ => show (j 2).val = win0_4.index t (2 : Fin 3) * 2048 + 1 * (j 2).val; rw [(idx4 t).2.2]; omega

/-- An index of the result array is in point `t`'s block iff each coordinate is in the block's range on its axis. -/
theorem mem_blk (t : Fin cfg0.N) (i : S16x256x2048.Idx) :
    i ∈ ((cfg0.win 4).blk t).view.set ↔ ∀ a : Fin 3, win0_4.index t a * S1x256x2048.size a ≤ (i a).val
      ∧ (i a).val < win0_4.index t a * S1x256x2048.size a + S1x256x2048.size a := by
  show i ∈ ((View.whole main_v1).slice (win0_4.rect t)).set ↔ _
  rw [View.set_slice_whole, Rect.mem_set_unit]
  exact Iff.rfl

/-- Every index of the result array is in the block written back after its expert's second tile. -/
theorem cover (i : S16x256x2048.Idx) :
    ∃ t : Fin cfg0.N, (cfg0.win 4).flush t = true ∧ i ∈ ((cfg0.win 4).blk t).view.set := by
  have h0 : (i 0).val < 16 := (i 0).isLt
  have h1 : (i 1).val < 256 := (i 1).isLt
  have h2 : (i 2).val < 2048 := (i 2).isLt
  have hlt : 2 * (i 0).val + 1 < cfg0.N := by rw [show cfg0.N = 32 from N_0]; omega
  refine ⟨⟨2 * (i 0).val + 1, hlt⟩, (flush0_4 _).mpr (by show (2 * (i 0).val + 1) % 2 = 1; omega), ?_⟩
  rw [mem_blk]
  obtain ⟨e0, e1, e2⟩ := idx4 ⟨2 * (i 0).val + 1, hlt⟩
  have e0' : win0_4.index ⟨2 * (i 0).val + 1, hlt⟩ (0 : Fin 3) = (2 * (i 0).val + 1) / 2 := e0
  intro a
  match a with
  | ⟨0, _⟩ => show win0_4.index ⟨2 * (i 0).val + 1, hlt⟩ (0 : Fin 3) * 1 ≤ (i 0).val ∧ (i 0).val < win0_4.index ⟨2 * (i 0).val + 1, hlt⟩ (0 : Fin 3) * 1 + 1; rw [e0']; omega
  | ⟨1, _⟩ => show win0_4.index ⟨2 * (i 0).val + 1, hlt⟩ (1 : Fin 3) * 256 ≤ (i 1).val ∧ (i 1).val < win0_4.index ⟨2 * (i 0).val + 1, hlt⟩ (1 : Fin 3) * 256 + 256; rw [e1]; omega
  | ⟨2, _⟩ => show win0_4.index ⟨2 * (i 0).val + 1, hlt⟩ (2 : Fin 3) * 2048 ≤ (i 2).val ∧ (i 2).val < win0_4.index ⟨2 * (i 0).val + 1, hlt⟩ (2 : Fin 3) * 2048 + 2048; rw [e2]; omega

/-- The result window's array after the run is the specification. -/
theorem final (c : Dev nD) : (dats m 0 c).arrAt 4 cfg0.N = G m c :=
  (dats m 0 c).arrAt_eq_of_cover 4 (G m c) (flushed_eq m c) cover

/-! ## The host line after the region, and the run read -/

/-- The program's result: the host's [4096,2048] view of the window's array. -/
theorem tail_eq (c : Dev nD) :
    Pipeline.afterTail₀ cfgs (dats m) 0 (V0 m) [hostOps1] c main_v2
      = shapeCast S4096x2048 (G m c) Facts₀.shapeCasts_S16x256x2048_S4096x2048 := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v1)
      = G m c :=
    (Pipeline.withArrays_arr spec0 launch0.win.arr_inj c _ _ 4).trans (final m c)
  rw [e]
  rfl

/-- The run, read: the result at the host's view of the specification, the arguments unchanged. -/
theorem run : θ_run defs (onTc (τ := τ) (main (F := Ideal))) ⟨m, fun _ => 0, ρ⟩ fun r => ∀ c : Dev nD,
      r.2.mem ((c.tc : Thread nD τ).loc main_v2) = shapeCast S4096x2048 (G m c) Facts₀.shapeCasts_S16x256x2048_S4096x2048
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v2 (Pipeline.mem_restRefs_of main_v2 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.KValue

end
-- ==== Proof.RefSide.lean ====
/-
  The reference program's result as the layer's specification, entry by entry.

  Its two projections contract the weights' last axis with the tokens' last axis and are then transposed to
  [expert, token, hidden]; read at an entry each is `∑ₖ w[e,i,k]·x[p,k]`, the specification's `∑ₖ x[p,k]·w[e,i,k]` with the
  factors exchanged. The activation is spelt `g · (1 / (1 + exp (-g)))`, which is `g · σ(g)` by the definition of the
  logistic function on the extended reals, the word of `1.0` denoting 1. The last product, batched over the experts,
  contracts the hidden axis.
-/
import proofs.«170800_j12223476924456_2_alg».proof.Proof.Gen.ReferenceIdeal.Run
import proofs.«170800_j12223476924456_2_alg».proof.Proof.Gen.ReferenceIdeal.Read
import proofs.«170800_j12223476924456_2_alg».proof.Proof.MoeSpec

noncomputable section

namespace Cert.ReferenceIdeal.RefValue

open Cert.ReferenceIdeal Cert.ReferenceIdeal.Gen Cert.ReferenceIdeal.Read
open Idealize.ShloMosaic Idealize.ShloMosaic.ValueIdx
open scoped BigOperators

/-- The gate projection at `(e, p, i)`. -/
theorem gate_apply (x0 : (⟨S256x2048, .f32⟩ : BufTy).Contents (Elt Ideal)) (x1 : (⟨S16x1024x2048, .f32⟩ : BufTy).Contents (Elt Ideal))
    (j : S16x256x1024.Idx) :
    val_main_v1 (F := Ideal) x0 x1 j = ∑ k : Fin 2048, x0 (ix2 (j 1) k) * x1 (ix3 (j 0) (j 2) k) := by
  rw [val_main_v1_apply, val_main_v0_apply]
  refine Finset.sum_congr rfl fun k _ => ?_
  have e1 : ridx_main_v0 (idx_main_v1 j) k = ix2 (j 1) k := funext fun a => Fin.ext (by
    match a with
    | ⟨0, _⟩ => rfl
    | ⟨1, _⟩ => rfl)
  have e2 : lidx_main_v0 (idx_main_v1 j) k = ix3 (j 0) (j 2) k := funext fun a => Fin.ext (by
    match a with
    | ⟨0, _⟩ => rfl
    | ⟨1, _⟩ => rfl
    | ⟨2, _⟩ => rfl)
  rw [e1, e2]
  exact mul_comm (G := EReal) _ _

/-- The up projection at `(e, p, i)`. -/
theorem up_apply (x0 : (⟨S256x2048, .f32⟩ : BufTy).Contents (Elt Ideal)) (x2 : (⟨S16x1024x2048, .f32⟩ : BufTy).Contents (Elt Ideal))
    (j : S16x256x1024.Idx) :
    val_main_v3 (F := Ideal) x0 x2 j = ∑ k : Fin 2048, x0 (ix2 (j 1) k) * x2 (ix3 (j 0) (j 2) k) := by
  rw [val_main_v3_apply, val_main_v2_apply]
  refine Finset.sum_congr rfl fun k _ => ?_
  have e1 : ridx_main_v2 (idx_main_v3 j) k = ix2 (j 1) k := funext fun a => Fin.ext (by
    match a with
    | ⟨0, _⟩ => rfl
    | ⟨1, _⟩ => rfl)
  have e2 : lidx_main_v2 (idx_main_v3 j) k = ix3 (j 0) (j 2) k := funext fun a => Fin.ext (by
    match a with
    | ⟨0, _⟩ => rfl
    | ⟨1, _⟩ => rfl
    | ⟨2, _⟩ => rfl)
  rw [e1, e2]
  exact mul_comm (G := EReal) _ _

/-- The hidden values are the specification's. -/
theorem hidden_apply (x0 : (⟨S256x2048, .f32⟩ : BufTy).Contents (Elt Ideal)) (x1 x2 : (⟨S16x1024x2048, .f32⟩ : BufTy).Contents (Elt Ideal))
    (j : S16x256x1024.Idx) :
    val_main_v5 (F := Ideal) x0 x1 x2 j = MoeSpec.hidden x0 x1 x2 (j 0) (j 1) (j 2) := by
  rw [val_main_v5_apply, val_main_v4_apply, val_main_call0_v5_apply, val_main_call0_v4_apply, val_main_call0_cst_0_apply,
    val_main_call0_v3_apply, val_main_call0_v2_apply, val_main_call0_cst_apply, val_main_call0_v1_apply,
    val_main_call0_v0_apply, gate_apply, up_apply]
  unfold MoeSpec.hidden MoeSpec.act
  simp only [Ideal.mulf_def, Ideal.hostDivf_def, Ideal.addf_def, Ideal.hostUnary_exp_def, Ideal.hostNegf_def,
    Ideal.negf_def, Ideal.ofBits_def, MoeSpec.one_f32, MoeSpec.logistic_eq]

/-- The reference's [16,256,2048] result is the specification. -/
theorem result_eq (x0 : (⟨S256x2048, .f32⟩ : BufTy).Contents (Elt Ideal)) (x1 x2 : (⟨S16x1024x2048, .f32⟩ : BufTy).Contents (Elt Ideal))
    (x3 : (⟨S16x2048x1024, .f32⟩ : BufTy).Contents (Elt Ideal)) :
    val_main_v6 (F := Ideal) x0 x1 x2 x3 = MoeSpec.whole x0 x1 x2 x3 := by
  funext j
  rw [val_main_v6_apply]
  unfold MoeSpec.whole
  refine Finset.sum_congr rfl fun i _ => ?_
  rw [hidden_apply]
  have e : ridx_main_v6 j i = ix3 (j 0) (j 2) i := funext fun a => Fin.ext (by
    match a with
    | ⟨0, _⟩ => rfl
    | ⟨1, _⟩ => rfl
    | ⟨2, _⟩ => rfl)
  rw [e]
  rfl

end Cert.ReferenceIdeal.RefValue

end
-- ==== Proof.lean ====
/-
  The five claims of this certificate (Defs.lean): both kernel programs and the reference run, without a fault, and leave
  their argument arrays unchanged; the idealized kernel is the kernel's own text read on the extended reals; and the
  idealized kernel and the idealized reference end with equal results.

  The layer is a gated mixture of sixteen experts: for expert `e`, token `p`, output unit `q` the result entry is
  `∑ᵢ act(∑ₖ x[p,k]·wg[e,i,k], ∑ₖ x[p,k]·wu[e,i,k]) · wd[e,q,i]` over the 1024 hidden units, `act g u = g·σ(g)·u`. The kernel
  visits each expert's hidden units in two tiles of 512, keeps the running output block in its staging buffer and writes it
  back after the second tile; the reference computes the three products whole. On the extended reals the products of
  recast operands are plain sums, the kernel's logistic and the reference's `1/(1+exp(-g))` are one function, and a sum
  over 1024 terms is the sum of its two halves: only additions are regrouped and two factors exchanged, so the equality
  holds for every input and the precondition is not used.
-/
import proofs.«170800_j12223476924456_2_alg».proof.Defs
import proofs.«170800_j12223476924456_2_alg».proof.Proof.Gen.Kernel
import proofs.«170800_j12223476924456_2_alg».proof.Proof.Gen.KernelIdeal
import proofs.«170800_j12223476924456_2_alg».proof.Proof.Gen.ReferenceIdeal
import proofs.«170800_j12223476924456_2_alg».proof.Proof.Gen.Pre_finite_inputs
import proofs.«170800_j12223476924456_2_alg».proof.Proof.KernelBody
import proofs.«170800_j12223476924456_2_alg».proof.Proof.KernelIdealBody
import proofs.«170800_j12223476924456_2_alg».proof.Proof.KernelValue
import proofs.«170800_j12223476924456_2_alg».proof.Proof.RefSide
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_kernel : Cert.frame_Kernel := fun m ρ _ => Cert.Kernel.Body.frame m ρ

/-- So does its idealization. -/
theorem frame_kernelIdeal : Cert.frame_KernelIdeal := fun m ρ _ => Cert.KernelIdeal.Body.frame m ρ

/-- The reference is host operations only: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end at the host's [4096,2048] view of the layer's specification of the argument arrays. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq]
  unfold Cert.ReferenceIdeal.Read.val_main_v7
  rw [Cert.ReferenceIdeal.RefValue.result_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
